-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000x128 : Shape := ⟨2, ![1000, 128]⟩
abbrev S8x131072 : Shape := ⟨2, ![8, 131072]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_

variable [Facts]

def fn {F : FTy → Type} [FloatOps F] (main_arg0 : FVec F S1000000x128 .f32) (main_arg1 : FVec F S1000x128 .f32) (main_arg2 : IVec S8x131072 32) (main_arg3 : IVec S8x131072 32) (main_arg4 : IVec S8x131072 32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S1000x128 .f32 := Host.absf main_arg1
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  main_v8
-- ==== Kernel.lean ====
abbrev S1000000x128 : Shape := ⟨2, ![1000000, 128]⟩
abbrev S1000x128 : Shape := ⟨2, ![1000, 128]⟩
abbrev S8x131072 : Shape := ⟨2, ![8, 131072]⟩
abbrev S1000000x1 : Shape := ⟨2, ![1000000, 1]⟩
abbrev S8000x128 : Shape := ⟨2, ![8000, 128]⟩
abbrev S8000x1 : Shape := ⟨2, ![8000, 1]⟩
abbrev S8000 : Shape := ⟨1, ![8000]⟩
abbrev S1000000 : Shape := ⟨1, ![1000000]⟩
abbrev S1000x1 : Shape := ⟨2, ![1000, 1]⟩
abbrev S1000 : Shape := ⟨1, ![1000]⟩
abbrev S_ : Shape := ⟨0, ![]⟩
abbrev S8x131072x1 : Shape := ⟨3, ![8, 131072, 1]⟩
abbrev S8x150000 : Shape := ⟨2, ![8, 150000]⟩
abbrev S1200000 : Shape := ⟨1, ![1200000]⟩

abbrev nBuf : Space → Nat
  | .hbm => 42
  | .vmem => 6
  | .smem => 0
  | _ => 0

abbrev bufTy : (tb : Table) → Fin (tcTables nBuf tb) → BufTy
  | .hbm, ⟨0, _⟩ => ⟨S1000000x128, .f32⟩
  | .hbm, ⟨1, _⟩ => ⟨S1000x128, .f32⟩
  | .hbm, ⟨2, _⟩ => ⟨S8x131072, .i32⟩
  | .hbm, ⟨3, _⟩ => ⟨S8x131072, .i32⟩
  | .hbm, ⟨4, _⟩ => ⟨S8x131072, .i32⟩
  | .hbm, ⟨5, _⟩ => ⟨S1000000x1, .f32⟩
  | .hbm, ⟨6, _⟩ => ⟨S1000000, .f32⟩
  | .hbm, ⟨7, _⟩ => ⟨S1000x1, .f32⟩
  | .hbm, ⟨8, _⟩ => ⟨S1000, .f32⟩
  | .hbm, ⟨9, _⟩ => ⟨S_, .i32⟩
  | .hbm, ⟨10, _⟩ => ⟨S8x131072, .i32⟩
  | .hbm, ⟨11, _⟩ => ⟨S8x131072, .i1⟩
  | .hbm, ⟨12, _⟩ => ⟨S_, .i32⟩
  | .hbm, ⟨13, _⟩ => ⟨S8x131072, .i32⟩
  | .hbm, ⟨14, _⟩ => ⟨S8x131072, .i32⟩
  | .hbm, ⟨15, _⟩ => ⟨S8x131072, .i32⟩
  | .hbm, ⟨16, _⟩ => ⟨S8x131072x1, .i32⟩
  | .hbm, ⟨17, _⟩ => ⟨S8x131072, .f32⟩
  | .hbm, ⟨18, _⟩ => ⟨S_, .i32⟩
  | .hbm, ⟨19, _⟩ => ⟨S8x131072, .i32⟩
  | .hbm, ⟨20, _⟩ => ⟨S8x131072, .i1⟩
  | .hbm, ⟨21, _⟩ => ⟨S_, .i32⟩
  | .hbm, ⟨22, _⟩ => ⟨S8x131072, .i32⟩
  | .hbm, ⟨23, _⟩ => ⟨S8x131072, .i32⟩
  | .hbm, ⟨24, _⟩ => ⟨S8x131072, .i32⟩
  | .hbm, ⟨25, _⟩ => ⟨S8x131072x1, .i32⟩
  | .hbm, ⟨26, _⟩ => ⟨S8x131072, .f32⟩
  | .hbm, ⟨27, _⟩ => ⟨S_, .i32⟩
  | .hbm, ⟨28, _⟩ => ⟨S8x131072, .i32⟩
  | .hbm, ⟨29, _⟩ => ⟨S8x131072, .i1⟩
  | .hbm, ⟨30, _⟩ => ⟨S_, .i32⟩
  | .hbm, ⟨31, _⟩ => ⟨S8x131072, .i32⟩
  | .hbm, ⟨32, _⟩ => ⟨S8x131072, .i32⟩
  | .hbm, ⟨33, _⟩ => ⟨S8x131072, .i32⟩
  | .hbm, ⟨34, _⟩ => ⟨S8x131072x1, .i32⟩
  | .hbm, ⟨35, _⟩ => ⟨S8x131072, .f32⟩
  | .hbm, ⟨36, _⟩ => ⟨S8x131072, .f32⟩
  | .hbm, ⟨37, _⟩ => ⟨S8x131072, .f32⟩
  | .hbm, ⟨38, _⟩ => ⟨S_, .i32⟩
  | .hbm, ⟨39, _⟩ => ⟨S_, .f32⟩
  | .hbm, ⟨40, _⟩ => ⟨S8x150000, .f32⟩
  | .hbm, ⟨41, _⟩ => ⟨S1200000, .f32⟩
  | .local _ .vmem, ⟨0, _⟩ => ⟨S8000x128, .f32⟩
  | .local _ .vmem, ⟨1, _⟩ => ⟨S8000x128, .f32⟩
  | .local _ .vmem, ⟨2, _⟩ => ⟨S8000x1, .f32⟩
  | .local _ .vmem, ⟨3, _⟩ => ⟨S8000x1, .f32⟩
  | .local _ .vmem, ⟨4, _⟩ => ⟨S1000x128, .f32⟩
  | .local _ .vmem, ⟨5, _⟩ => ⟨S1000x1, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_call0_v0 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1000x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

class Facts₀ : Prop where
  inb_S8000x128_S8000x128_0_0 : ∀ a, (![0, 0] : Fin 2 → Nat) a + S8000x128.size a ≤ S8000x128.size a
  h_S8000x128 : 0 < S8000x128.numel
  reduces_S8000x128_S8000 : S8000x128.Reduces [1] S8000
  shapeCasts_S8000_S8000x1 : S8000.ShapeCasts S8000x1
  inb_S8000x1_S8000x1_0_0 : ∀ a, (![0, 0] : Fin 2 → Nat) a + S8000x1.size a ≤ S8000x1.size a
  h_S8000x1 : 0 < S8000x1.numel
  shapeCasts_S1000000x1_S1000000 : S1000000x1.ShapeCasts S1000000
  inb_S1000x128_S1000x128_0_0 : ∀ a, (![0, 0] : Fin 2 → Nat) a + S1000x128.size a ≤ S1000x128.size a
  h_S1000x128 : 0 < S1000x128.numel
  reduces_S1000x128_S1000 : S1000x128.Reduces [1] S1000
  shapeCasts_S1000_S1000x1 : S1000.ShapeCasts S1000x1
  inb_S1000x1_S1000x1_0_0 : ∀ a, (![0, 0] : Fin 2 → Nat) a + S1000x1.size a ≤ S1000x1.size a
  h_S1000x1 : 0 < S1000x1.numel
  shapeCasts_S1000x1_S1000 : S1000x1.ShapeCasts S1000
  bcast_S_S8x131072 : S_.BroadcastsInDim S8x131072 (![] : Fin 0 → Fin S8x131072.rank)
  bcast_S8x131072_S8x131072x1_0_1 : S8x131072.BroadcastsInDim S8x131072x1 (![0, 1] : Fin 2 → Fin S8x131072x1.rank)
  pads_S8x131072_S8x150000_000_0189280 : S8x131072.Pads (![0, 0] : Fin 2 → Nat) ![0, 18928] ![0, 0] S8x150000
  h_S_ : 0 < S_.numel
  shapeCasts_S8x150000_S1200000 : S8x150000.ShapeCasts S1200000
  gather_S1000000_S8x131072x1_S8x131072_n_0_n_n_0_2_1_wf : GatherDims.WF S1000000 S8x131072x1 S8x131072 [] [0] [] [0] [] 2 ![1]
  gather_S1000_S8x131072x1_S8x131072_n_0_n_n_0_2_1_wf : GatherDims.WF S1000 S8x131072x1 S8x131072 [] [0] [] [0] [] 2 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1000000x128.size a
  hwx0_0 : ∀ i : grid0.Coords, EltTy.bits .f32 = 32 ∨ (Rect.block (s := S1000000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S1000000x1.size a
  hwx0_1 : ∀ i : grid0.Coords, EltTy.bits .f32 = 32 ∨ (Rect.block (s := S1000000x1) S8000x1.size (cc0_transform_1 i) (hinb0_1 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S1000x128.size a
  hwx1_0 : ∀ i : grid1.Coords, EltTy.bits .f32 = 32 ∨ (Rect.block (s := S1000x128) S1000x128.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S1000x1.size a
  hwx1_1 : ∀ i : grid1.Coords, EltTy.bits .f32 = 32 ∨ (Rect.block (s := S1000x1) S1000x1.size (cc1_transform_1 i) (hinb1_1 i)).WholeWords (EltTy.packing .f32)

variable [Facts₀]

def gather_S1000000_S8x131072x1_S8x131072_n_0_n_n_0_2_1 : GatherDims S1000000 S8x131072x1 S8x131072 where
  offsetDims := []
  collapsedSliceDims := [0]
  operandBatchingDims := []
  startIndicesBatchingDims := []
  startIndexMap := [0]
  indexVectorDim := 2
  sliceSizes := ![1]
  wf := gather_S1000000_S8x131072x1_S8x131072_n_0_n_n_0_2_1_wf
def gather_S1000_S8x131072x1_S8x131072_n_0_n_n_0_2_1 : GatherDims S1000 S8x131072x1 S8x131072 where
  offsetDims := []
  collapsedSliceDims := [0]
  operandBatchingDims := []
  startIndicesBatchingDims := []
  startIndexMap := [0]
  indexVectorDim := 2
  sliceSizes := ![1]
  wf := gather_S1000_S8x131072x1_S8x131072_n_0_n_n_0_2_1_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8000x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1000x128.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1000x1.size cc1_transform_1 reads1_1 true false 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S1000000x128 : Shape := ⟨2, ![1000000, 128]⟩
abbrev S1000x128 : Shape := ⟨2, ![1000, 128]⟩
abbrev S8x131072 : Shape := ⟨2, ![8, 131072]⟩
abbrev S_ : Shape := ⟨0, ![]⟩
abbrev S8x131072x1 : Shape := ⟨3, ![8, 131072, 1]⟩
abbrev S8x131072x128 : Shape := ⟨3, ![8, 131072, 128]⟩
abbrev S8x150000 : Shape := ⟨2, ![8, 150000]⟩
abbrev S1200000 : Shape := ⟨1, ![1200000]⟩

abbrev nBuf : Space → Nat
  | .hbm => 40
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000x128, .f32⟩
  | .hbm, ⟨2, _⟩ => ⟨S8x131072, .i32⟩
  | .hbm, ⟨3, _⟩ => ⟨S8x131072, .i32⟩
  | .hbm, ⟨4, _⟩ => ⟨S8x131072, .i32⟩
  | .hbm, ⟨5, _⟩ => ⟨S_, .i32⟩
  | .hbm, ⟨6, _⟩ => ⟨S8x131072, .i32⟩
  | .hbm, ⟨7, _⟩ => ⟨S8x131072, .i1⟩
  | .hbm, ⟨8, _⟩ => ⟨S_, .i32⟩
  | .hbm, ⟨9, _⟩ => ⟨S8x131072, .i32⟩
  | .hbm, ⟨10, _⟩ => ⟨S8x131072, .i32⟩
  | .hbm, ⟨11, _⟩ => ⟨S8x131072, .i32⟩
  | .hbm, ⟨12, _⟩ => ⟨S8x131072x1, .i32⟩
  | .hbm, ⟨13, _⟩ => ⟨S8x131072x128, .f32⟩
  | .hbm, ⟨14, _⟩ => ⟨S_, .i32⟩
  | .hbm, ⟨15, _⟩ => ⟨S8x131072, .i32⟩
  | .hbm, ⟨16, _⟩ => ⟨S8x131072, .i1⟩
  | .hbm, ⟨17, _⟩ => ⟨S_, .i32⟩
  | .hbm, ⟨18, _⟩ => ⟨S8x131072, .i32⟩
  | .hbm, ⟨19, _⟩ => ⟨S8x131072, .i32⟩
  | .hbm, ⟨20, _⟩ => ⟨S8x131072, .i32⟩
  | .hbm, ⟨21, _⟩ => ⟨S8x131072x1, .i32⟩
  | .hbm, ⟨22, _⟩ => ⟨S8x131072x128, .f32⟩
  | .hbm, ⟨23, _⟩ => ⟨S_, .i32⟩
  | .hbm, ⟨24, _⟩ => ⟨S8x131072, .i32⟩
  | .hbm, ⟨25, _⟩ => ⟨S8x131072, .i1⟩
  | .hbm, ⟨26, _⟩ => ⟨S_, .i32⟩
  | .hbm, ⟨27, _⟩ => ⟨S8x131072, .i32⟩
  | .hbm, ⟨28, _⟩ => ⟨S8x131072, .i32⟩
  | .hbm, ⟨29, _⟩ => ⟨S8x131072, .i32⟩
  | .hbm, ⟨30, _⟩ => ⟨S8x131072x1, .i32⟩
  | .hbm, ⟨31, _⟩ => ⟨S8x131072x128, .f32⟩
  | .hbm, ⟨32, _⟩ => ⟨S8x131072x128, .f32⟩
  | .hbm, ⟨33, _⟩ => ⟨S8x131072x128, .f32⟩
  | .hbm, ⟨34, _⟩ => ⟨S_, .f32⟩
  | .hbm, ⟨35, _⟩ => ⟨S8x131072, .f32⟩
  | .hbm, ⟨36, _⟩ => ⟨S_, .i32⟩
  | .hbm, ⟨37, _⟩ => ⟨S_, .f32⟩
  | .hbm, ⟨38, _⟩ => ⟨S8x150000, .f32⟩
  | .hbm, ⟨39, _⟩ => ⟨S1200000, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_c_5 : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S_S8x131072 : S_.BroadcastsInDim S8x131072 (![] : Fin 0 → Fin S8x131072.rank)
  bcast_S8x131072_S8x131072x1_0_1 : S8x131072.BroadcastsInDim S8x131072x1 (![0, 1] : Fin 2 → Fin S8x131072x1.rank)
  reducesTo_S8x131072x128_S8x131072_d2 : S8x131072x128.ReducesTo [2] S8x131072
  h_S_ : 0 < S_.numel
  pads_S8x131072_S8x150000_000_0189280 : S8x131072.Pads (![0, 0] : Fin 2 → Nat) ![0, 18928] ![0, 0] S8x150000
  shapeCasts_S8x150000_S1200000 : S8x150000.ShapeCasts S1200000
  gather_S1000000x128_S8x131072x1_S8x131072x128_2_0_n_n_0_2_1128_wf : GatherDims.WF S1000000x128 S8x131072x1 S8x131072x128 [2] [0] [] [0] [] 2 ![1, 128]
  gather_S1000x128_S8x131072x1_S8x131072x128_2_0_n_n_0_2_1128_wf : GatherDims.WF S1000x128 S8x131072x1 S8x131072x128 [2] [0] [] [0] [] 2 ![1, 128]

variable [Facts₀]

def gather_S1000000x128_S8x131072x1_S8x131072x128_2_0_n_n_0_2_1128 : GatherDims S1000000x128 S8x131072x1 S8x131072x128 where
  offsetDims := [2]
  collapsedSliceDims := [0]
  operandBatchingDims := []
  startIndicesBatchingDims := []
  startIndexMap := [0]
  indexVectorDim := 2
  sliceSizes := ![1, 128]
  wf := gather_S1000000x128_S8x131072x1_S8x131072x128_2_0_n_n_0_2_1128_wf
def gather_S1000x128_S8x131072x1_S8x131072x128_2_0_n_n_0_2_1128 : GatherDims S1000x128 S8x131072x1 S8x131072x128 where
  offsetDims := [2]
  collapsedSliceDims := [0]
  operandBatchingDims := []
  startIndicesBatchingDims := []
  startIndexMap := [0]
  indexVectorDim := 2
  sliceSizes := ![1, 128]
  wf := gather_S1000x128_S8x131072x1_S8x131072x128_2_0_n_n_0_2_1128_wf

class Facts : Prop extends Facts₀ where

variable [Facts]
-- ==== Proof.WholeRun.lean ====
/-
  The idealized kernel's run, with EVERY unscoped buffer named at the end.

  @main is six segments: the entity-table row-sum region, one reshape, the relation-table row-sum region, the
  thirty-one host operations that normalise the three index arrays, gather and combine, the two operations of the
  padding function, and the final reshape. The buffer contents at the six boundaries are the fold `W0 … W6` of the
  frame module. Here the library's launch theorem for a program of several regions (`Pipeline.θ_run_regions_kit`) is
  applied to those segments with a post that keeps the last boundary whole:
  after every weakly fair execution each unscoped buffer `b` of core `c` holds `W6 m ρ c b`. The result buffer and
  the five arguments are among them, so both the frame and the value are read off this one run.
-/
import proofs.«114982_j87282325390073_2_alg».proof.Proof.Gen.KernelIdeal.Frame

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at the
    last boundary's contents. -/
theorem run_bufs : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The run with the result buffer and the five arguments read off the last boundary. -/
theorem run_result : θ_run defs (onTc (τ := τ) (main (F := F))) ⟨m, fun _ => 0, ρ⟩ (fun r => ∀ c : Dev nD,
      r.2.mem ((c.tc : Thread nD τ).loc main_v28) = W6 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun s h c =>
      ⟨h c _ (mem_uc main_v28 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)
    (run_bufs m ρ)

end Cert.KernelIdeal.WholeRun

end
-- ==== Proof.LibColumn.lean ====
/-
  A sum kept as a column: the two layout steps every `sum(axis=1, keepdims=True)` meets, read at an index.

  A vector of `a` entries viewed as an `a × 1` column has, at `(i, 0)`, the vector's entry `i`; and an `a × 1`
  column repeated along `b` columns has, at `(p, c)`, the column's entry `p`.  (Their companions for a row — a
  vector viewed `1 × a`, a `1 × b` row repeated along `a` rows — are in the library's layout file.)
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.RowSum.lean ====
/-
  The row sum, and what one grid point of a row-sum region computes.

  `rowSum A r` is the sum of row `r` of a table `A` with 128 lanes. The body of either region loads its block, sums
  every row over the lanes and stores the sums as a column; read at `(r, 0)` that column is `rowSum` of the block at
  `r`. `col A` is the table's column of row sums, `vec A` the same as a flat vector; the reshape between the two
  regions' results and the gathers' operands takes one to the other.
-/
import Idealize.ShloMosaic.Lib.ValueIdx
import Idealize.ShloMosaic.Lib.Pipeline.Value
import Idealize.ShloMosaic.PureOps.Ideal.Laws
import proofs.«114982_j87282325390073_2_alg».proof.Proof.LibColumn

noncomputable section

open scoped BigOperators

namespace Cert.RowSum

open Idealize.ShloMosaic Idealize.ShloMosaic.ValueIdx

/-- The sum of row `r` of a table with 128 lanes. -/
def rowSum {N : ℕ} (A : (⟨2, ![N, 128]⟩ : Shape).Idx → EReal) (r : Fin N) : EReal := ∑ k : Fin 128, A (ix2 r k)

/-- The table's row sums as an `N × 1` column. -/
def col {N : ℕ} (A : (⟨2, ![N, 128]⟩ : Shape).Idx → EReal) : (⟨2, ![N, 1]⟩ : Shape).Idx → EReal := fun i => rowSum A (i 0)

/-- The table's row sums as a flat vector. -/
def vec {N : ℕ} (A : (⟨2, ![N, 128]⟩ : Shape).Idx → EReal) : (⟨1, ![N]⟩ : Shape).Idx → EReal := fun i => rowSum A (i 0)

/-- The body's stored value — the lane sum of the loaded block cast to a column — at `(r, u)` is the sum of the
    block's row `r`. -/
theorem pay_apply {N : ℕ} (v : FVec Ideal ⟨2, ![N, 128]⟩ .f32) (h : Shape.Reduces ⟨2, ![N, 128]⟩ [1] ⟨1, ![N]⟩)
    (hφ : FKind.Formats .f32) (hacc : (0x00000000#32 : BitVec 32) = FKind.add.neutral .f32 hφ)
    (hc : (⟨1, ![N]⟩ : Shape).ShapeCasts ⟨2, ![N, 1]⟩) (r : Fin N) (u : Fin 1) :
    shapeCast ⟨2, ![N, 1]⟩ (multiReduction (F := Ideal) .add [1] ⟨1, ![N]⟩ v 0x00000000#32 h hφ hacc) hc (ix2 r u) = rowSum v r := by
  refine (Cert.LibColumn.shapeCast_a_a1_apply _ hc r u).trans ?_
  refine (Ideal.multiReduction_add_single v _ h hφ hacc (ix1 r)).trans ?_
  exact Finset.sum_congr rfl fun k _ => congrArg v (funext fun a => Fin.ext (by
    match a with
    | ⟨0, _⟩ => rfl
    | ⟨1, _⟩ => rfl))

/-- The column of row sums reshaped to a flat vector is the vector of row sums. -/
theorem shapeCast_col {N : ℕ} (A : (⟨2, ![N, 128]⟩ : Shape).Idx → EReal)
    (h : (⟨2, ![N, 1]⟩ : Shape).ShapeCasts ⟨1, ![N]⟩) : shapeCast ⟨1, ![N]⟩ (col A) h = vec A := by
  funext i
  obtain ⟨r, rfl⟩ : ∃ r : Fin N, i = ix1 r := ⟨i 0, eq_ix1 i⟩
  refine (shapeCast_apply (col A) h (ix1 r) (ix2 r (0 : Fin 1)) (by
    rw [Shape.rowMajor_val_two, Shape.rowMajor_val_one]
    show r.val * 1 + 0 = r.val
    omega)).trans ?_
  rfl

end Cert.RowSum

end
-- ==== Proof.RegionValue.lean ====
/-
  What each row-sum region leaves in its output array.

  A region runs the row-sum body once per block of rows: at grid point `t` the input window holds rows
  `t·TM … t·TM + TM − 1` of the table and the output window the same rows of the `N × 1` result. The body stores, in
  row `r` of the output block, the lane sum of row `r` of the input block — the row sum of row `t·TM + r` of the table.
  So every point writes back its block of ONE whole-array function, the table's column of row sums, and the blocks
  cover the result (row `i` lies in the block of point `i / TM`): after the region the result IS that column. Stated at
  a parameter `V`, the buffer contents when the region is entered, as the frame module states its regions.
-/
import proofs.«114982_j87282325390073_2_alg».proof.Proof.Gen.KernelIdeal.Frame
import proofs.«114982_j87282325390073_2_alg».proof.Proof.RowSum

set_option maxRecDepth 16384

noncomputable section

open scoped BigOperators

namespace Cert.KernelIdeal.RegionValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.RowSum

variable (V : (c : Dev nD) → (b : Ref sig .tc) → Buf (Elt Ideal) ((c : Thread nD τ).loc b))

theorem hz : (![0, 0] : Fin 2 → Nat) = fun _ => 0 := funext fun a => by fin_cases a <;> rfl

/-! ## Region 0: the 1000000-row table, in blocks of 8000 rows -/

/-- The body's stored column at `(r, u)` is the sum of the loaded block's row `r`. -/
theorem pay0_apply (x0 : Vec Ideal S8000x128 .f32) (r : Fin 8000) (u : Fin 1) :
    k0_pay1 (F := Ideal) x0 (ix2 r u) = rowSum (N := 8000) x0 r :=
  pay_apply (N := 8000) x0 reduces_S8000x128_S8000 (.inl rfl) rfl shapeCasts_S8000_S8000x1 r u

/-- The printed index maps over the grid: both windows' block row is the point's number, their block column zero. -/
theorem idx0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- WHAT POINT `t` WRITES BACK is block `t` of the column of row sums of the table as the region finds it: row `r` of
    the output block and row `r` of the input block are the same row of their arrays. -/
theorem flushed0 (c : Dev nD) (t : Fin cfg0.N) :
    (dat0 V c).flushed 1 t = ((cfg0.win 1).blk t).view.read (Elt Ideal) (col (N := 1000000) (V c main_arg0)) := by
  show (cfg0.win 1).cut (grid0.coords t) ((dat0 V c).after 1 t) = _
  rw [after0_1]
  unfold out0_1
  rw [View.canon_unit_zero hz]
  simp only [View.ld_unit_zero (S := S8000x128) hz]
  obtain ⟨e0, e1, e2, e3⟩ := idx0 t
  funext j
  obtain ⟨r, u, rfl⟩ : ∃ (r : Fin 8000) (u : Fin 1), j = ix2 r u := ⟨j 0, j 1, eq_ix2 j⟩
  show k0_pay1 (iblk0 V c 0 t) (ix2 r u) = col (N := 1000000) (V c main_arg0) (((cfg0.win 1).blk t).view.emb (ix2 r u))
  refine (pay0_apply (iblk0 V c 0 t) r u).trans ?_
  show rowSum (N := 8000) (iblk0 V c 0 t) r = rowSum (N := 1000000) (V c main_arg0) ((((cfg0.win 1).blk t).view.emb (ix2 r u)) 0)
  unfold rowSum
  refine Finset.sum_congr rfl fun k _ => ?_
  show V c main_arg0 (((cfg0.win 0).blk t).view.emb (ix2 r k)) = V c main_arg0 (ix2 ((((cfg0.win 1).blk t).view.emb (ix2 r u)) 0) k)
  refine congrArg (V c main_arg0) (funext fun a => Fin.ext ?_)
  match a with
  | ⟨0, _⟩ =>
    show win0_0.index t (0 : Fin 2) * 8000 + 1 * r.val = win0_1.index t (0 : Fin 2) * 8000 + 1 * r.val
    omega
  | ⟨1, _⟩ =>
    show win0_0.index t (1 : Fin 2) * 128 + 1 * k.val = k.val
    omega

/-- An index of the output array is in point `t`'s block iff each coordinate is in the block's range on its axis. -/
theorem mem_blk0 (t : Fin cfg0.N) (i : S1000000x1.Idx) :
    i ∈ ((cfg0.win 1).blk t).view.set ↔ ∀ a : Fin 2, win0_1.index t a * S8000x1.size a ≤ (i a).val ∧ (i a).val < win0_1.index t a * S8000x1.size a + S8000x1.size a := by
  show i ∈ ((View.whole main_v0).slice (win0_1.rect t)).set ↔ _
  rw [View.set_slice_whole, Rect.mem_set_unit]
  exact Iff.rfl

/-- Every row of the output array is in some point's block: row `i` in that of point `i / 8000`. -/
theorem cover0 (i : S1000000x1.Idx) : ∃ t : Fin cfg0.N, (cfg0.win 1).flush t = true ∧ i ∈ ((cfg0.win 1).blk t).view.set := by
  have hi0 : (i 0).val < 1000000 := (i 0).isLt
  have hi1 : (i 1).val < 1 := (i 1).isLt
  have hN : grid0.N = 125 := N_0
  obtain ⟨t, ht⟩ : ∃ t : Fin cfg0.N, t.val = (i 0).val / 8000 :=
    ⟨⟨(i 0).val / 8000, by show (i 0).val / 8000 < grid0.N; omega⟩, rfl⟩
  obtain ⟨e0, e1, e2, e3⟩ := idx0 t
  refine ⟨t, flush0_1 t, ?_⟩
  rw [mem_blk0]
  intro a
  match a with
  | ⟨0, _⟩ =>
    show win0_1.index t (0 : Fin 2) * 8000 ≤ (i 0).val ∧ (i 0).val < win0_1.index t (0 : Fin 2) * 8000 + 8000
    omega
  | ⟨1, _⟩ =>
    show win0_1.index t (1 : Fin 2) * 1 ≤ (i 1).val ∧ (i 1).val < win0_1.index t (1 : Fin 2) * 1 + 1
    omega

/-- THE OUTPUT ARRAY after the region: the column of row sums of the table as the region finds it. -/
theorem final0 (c : Dev nD) : (dat0 V c).arrAt 1 cfg0.N = col (N := 1000000) (V c main_arg0) :=
  (dat0 V c).arrAt_eq_of_cover 1 _ (fun t _ => flushed0 V c t) (cover0)

/-! ## Region 1: the 1000-row table, in blocks of 1000 rows -/

/-- The body's stored column at `(r, u)` is the sum of the loaded block's row `r`. -/
theorem pay1_apply (x0 : Vec Ideal S1000x128 .f32) (r : Fin 1000) (u : Fin 1) :
    k1_pay1 (F := Ideal) x0 (ix2 r u) = rowSum (N := 1000) x0 r :=
  pay_apply (N := 1000) x0 reduces_S1000x128_S1000 (.inl rfl) rfl shapeCasts_S1000_S1000x1 r u

/-- The printed index maps over the grid: both windows' block row is the point's number, their block column zero. -/
theorem idx1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- WHAT POINT `t` WRITES BACK is block `t` of the column of row sums of the table as the region finds it: row `r` of
    the output block and row `r` of the input block are the same row of their arrays. -/
theorem flushed1 (c : Dev nD) (t : Fin cfg1.N) :
    (dat1 V c).flushed 1 t = ((cfg1.win 1).blk t).view.read (Elt Ideal) (col (N := 1000) (V c main_arg1)) := by
  show (cfg1.win 1).cut (grid1.coords t) ((dat1 V c).after 1 t) = _
  rw [after1_1]
  unfold out1_1
  rw [View.canon_unit_zero hz]
  simp only [View.ld_unit_zero (S := S1000x128) hz]
  obtain ⟨e0, e1, e2, e3⟩ := idx1 t
  funext j
  obtain ⟨r, u, rfl⟩ : ∃ (r : Fin 1000) (u : Fin 1), j = ix2 r u := ⟨j 0, j 1, eq_ix2 j⟩
  show k1_pay1 (iblk1 V c 0 t) (ix2 r u) = col (N := 1000) (V c main_arg1) (((cfg1.win 1).blk t).view.emb (ix2 r u))
  refine (pay1_apply (iblk1 V c 0 t) r u).trans ?_
  show rowSum (N := 1000) (iblk1 V c 0 t) r = rowSum (N := 1000) (V c main_arg1) ((((cfg1.win 1).blk t).view.emb (ix2 r u)) 0)
  unfold rowSum
  refine Finset.sum_congr rfl fun k _ => ?_
  show V c main_arg1 (((cfg1.win 0).blk t).view.emb (ix2 r k)) = V c main_arg1 (ix2 ((((cfg1.win 1).blk t).view.emb (ix2 r u)) 0) k)
  refine congrArg (V c main_arg1) (funext fun a => Fin.ext ?_)
  match a with
  | ⟨0, _⟩ =>
    show win1_0.index t (0 : Fin 2) * 1000 + 1 * r.val = win1_1.index t (0 : Fin 2) * 1000 + 1 * r.val
    omega
  | ⟨1, _⟩ =>
    show win1_0.index t (1 : Fin 2) * 128 + 1 * k.val = k.val
    omega

/-- An index of the output array is in point `t`'s block iff each coordinate is in the block's range on its axis. -/
theorem mem_blk1 (t : Fin cfg1.N) (i : S1000x1.Idx) :
    i ∈ ((cfg1.win 1).blk t).view.set ↔ ∀ a : Fin 2, win1_1.index t a * S1000x1.size a ≤ (i a).val ∧ (i a).val < win1_1.index t a * S1000x1.size a + S1000x1.size a := by
  show i ∈ ((View.whole main_v2).slice (win1_1.rect t)).set ↔ _
  rw [View.set_slice_whole, Rect.mem_set_unit]
  exact Iff.rfl

/-- Every row of the output array is in some point's block: row `i` in that of point `i / 1000`. -/
theorem cover1 (i : S1000x1.Idx) : ∃ t : Fin cfg1.N, (cfg1.win 1).flush t = true ∧ i ∈ ((cfg1.win 1).blk t).view.set := by
  have hi0 : (i 0).val < 1000 := (i 0).isLt
  have hi1 : (i 1).val < 1 := (i 1).isLt
  have hN : grid1.N = 1 := N_1
  obtain ⟨t, ht⟩ : ∃ t : Fin cfg1.N, t.val = (i 0).val / 1000 :=
    ⟨⟨(i 0).val / 1000, by show (i 0).val / 1000 < grid1.N; omega⟩, rfl⟩
  obtain ⟨e0, e1, e2, e3⟩ := idx1 t
  refine ⟨t, flush1_1 t, ?_⟩
  rw [mem_blk1]
  intro a
  match a with
  | ⟨0, _⟩ =>
    show win1_1.index t (0 : Fin 2) * 1000 ≤ (i 0).val ∧ (i 0).val < win1_1.index t (0 : Fin 2) * 1000 + 1000
    omega
  | ⟨1, _⟩ =>
    show win1_1.index t (1 : Fin 2) * 1 ≤ (i 1).val ∧ (i 1).val < win1_1.index t (1 : Fin 2) * 1 + 1
    omega

/-- THE OUTPUT ARRAY after the region: the column of row sums of the table as the region finds it. -/
theorem final1 (c : Dev nD) : (dat1 V c).arrAt 1 cfg1.N = col (N := 1000) (V c main_arg1) :=
  (dat1 V c).arrAt_eq_of_cover 1 _ (fun t _ => flushed1 V c t) (cover1)

end Cert.KernelIdeal.RegionValue

end
-- ==== Proof.KernelValue.lean ====
/-
  The idealized kernel's result as one function of its five arguments.

  Walking the last boundary's contents back through @main: the result is the reshape of the padded scores; the scores
  are `h + r − t` of three gathers of ONE ELEMENT per edge — from the flat vector of the entity table's row sums at
  the source indices, from the relation table's row sums at the relation indices, and from the entity table's row sums
  again at the destination indices —, each index array first wrapped (a negative entry moved up by the table's
  length) and viewed `[8, 131072, 1]`; the two vectors of row sums are the reshapes of what the two regions leave,
  which are the tables' columns of row sums; and no operation or region writes an argument.
-/
import proofs.«114982_j87282325390073_2_alg».proof.Proof.RegionValue

set_option maxRecDepth 16384

noncomputable section

namespace Cert.KernelIdeal.KernelValue

open Idealize.ShloMosaic Idealize.ShloMosaic.TcCoe Idealize.ShloMosaic.ValueIdx
open Idealize.SL Idealize.SL.Sem Idealize.ShloMosaic.StableHlo
open Cert.KernelIdeal Cert.KernelIdeal.Gen Cert.RowSum Cert.KernelIdeal.RegionValue

/-- An index array as a gather's start indices: the entries below zero moved up by `n` (an index counted from the
    end), the array viewed `[8, 131072, 1]`. -/
def starts (n : BitVec 32) (x : (⟨S8x131072, .i32⟩ : BufTy).Contents (Elt Ideal)) : (⟨S8x131072x1, .i32⟩ : BufTy).Contents (Elt Ideal) :=
  broadcastInDim S8x131072x1 ![0, 1] bcast_S8x131072_S8x131072x1_0_1
    (select (cmpi .slt x (broadcastInDim S8x131072 ![] bcast_S_S8x131072 (constantI S_ 32 0#32)))
      (addi x (broadcastInDim S8x131072 ![] bcast_S_S8x131072 (constantI S_ 32 n))) x)

/-- The combine over any two per-row vectors `e` (entities) and `r` (relations): per edge, `e` at the source plus `r` at
    the relation minus `e` at the destination. -/
def combine (e : FVec Ideal S1000000 .f32) (r : FVec Ideal S1000 .f32)
    (x2 x3 x4 : (⟨S8x131072, .i32⟩ : BufTy).Contents (Elt Ideal)) : FVec Ideal S8x131072 .f32 :=
  subf (F := Ideal) (φ := .f32) (addf (F := Ideal) (φ := .f32)
      (Host.gather gather_S1000000_S8x131072x1_S8x131072_n_0_n_n_0_2_1 e (starts 1000000#32 x2))
      (Host.gather gather_S1000_S8x131072x1_S8x131072_n_0_n_n_0_2_1 r (starts 1000#32 x4)))
    (Host.gather gather_S1000000_S8x131072x1_S8x131072_n_0_n_n_0_2_1 e (starts 1000000#32 x3))

/-- The scores: per edge, the source's row sum plus the relation's minus the destination's. -/
def scores (x0 : (⟨S1000000x128, .f32⟩ : BufTy).Contents (Elt Ideal)) (x1 : (⟨S1000x128, .f32⟩ : BufTy).Contents (Elt Ideal))
    (x2 x3 x4 : (⟨S8x131072, .i32⟩ : BufTy).Contents (Elt Ideal)) : FVec Ideal S8x131072 .f32 :=
  combine (vec (N := 1000000) x0) (vec (N := 1000) x1) x2 x3 x4

/-- The tail both programs share: every relation type's scores padded with zeros to 150000 and the rows laid end to end. -/
def padded (z : FVec Ideal S8x131072 .f32) : (⟨S1200000, .f32⟩ : BufTy).Contents (Elt Ideal) :=
  shapeCast _ (pad S8x150000 ![0, 0] ![0, 18928] ![0, 0] z (sitofp (F := Ideal) .f32 (constantI S_ 32 0#32)) pads_S8x131072_S8x150000_000_0189280 h_S_) shapeCasts_S8x150000_S1200000

variable (m : (ℓ : Loc nD τ sig) → Buf (Elt Ideal) ℓ) (ρ : Dev nD → PrngReg)

/-- An argument's buffer at the second region's exit is as launched: neither region nor the reshape writes it. -/
theorem W3_arg1 (c : Dev nD) : W2 m ρ c (Proc.devRef .tc main_arg1) = m ((c : Thread nD τ).loc main_arg1) := by
  show StableHlo.after hostOps1 (W1 m ρ c) (Proc.devRef .tc main_arg1) = _
  after_results
  exact W1_of_ne m ρ c main_arg1 (by decide)
theorem W3_arg2 (c : Dev nD) : W3 m ρ c (Proc.devRef .tc main_arg2) = m ((c : Thread nD τ).loc main_arg2) := by
  rw [W3_of_ne m ρ c main_arg2 (by decide)]
  show StableHlo.after hostOps1 (W1 m ρ c) (Proc.devRef .tc main_arg2) = _
  after_results
  exact W1_of_ne m ρ c main_arg2 (by decide)
theorem W3_arg3 (c : Dev nD) : W3 m ρ c (Proc.devRef .tc main_arg3) = m ((c : Thread nD τ).loc main_arg3) := by
  rw [W3_of_ne m ρ c main_arg3 (by decide)]
  show StableHlo.after hostOps1 (W1 m ρ c) (Proc.devRef .tc main_arg3) = _
  after_results
  exact W1_of_ne m ρ c main_arg3 (by decide)
theorem W3_arg4 (c : Dev nD) : W3 m ρ c (Proc.devRef .tc main_arg4) = m ((c : Thread nD τ).loc main_arg4) := by
  rw [W3_of_ne m ρ c main_arg4 (by decide)]
  show StableHlo.after hostOps1 (W1 m ρ c) (Proc.devRef .tc main_arg4) = _
  after_results
  exact W1_of_ne m ρ c main_arg4 (by decide)

/-- The first region's result, reshaped flat, at the second region's exit: the entity table's vector of row sums. -/
theorem W3_v1 (c : Dev nD) : W3 m ρ c (Proc.devRef .tc main_v1) = vec (N := 1000000) (m ((c : Thread nD τ).loc main_arg0)) := by
  rw [W3_of_ne m ρ c main_v1 (by decide)]
  show StableHlo.after hostOps1 (W1 m ρ c) (Proc.devRef .tc main_v1) = _
  after_results
  rw [show W1 m ρ c (Proc.devRef .tc main_v0) = col (N := 1000000) (m ((c : Thread nD τ).loc main_arg0))
    from (W1_arr m ρ c 1).trans (final0 (V0 m ρ) c)]
  exact shapeCast_col _ _

/-- The second region's result at its exit: the relation table's column of row sums. -/
theorem W3_v2 (c : Dev nD) : W3 m ρ c (Proc.devRef .tc main_v2) = col (N := 1000) (m ((c : Thread nD τ).loc main_arg1)) := by
  refine (W3_arr m ρ c 1).trans ?_
  refine (final1 (V2 m ρ) c).trans ?_
  exact congrArg (col (N := 1000)) (W3_arg1 m ρ c)

/-- THE RESULT BUFFER at the last boundary: the padded scores of the arguments as launched. -/
theorem result (c : Dev nD) : W6 m ρ c (Proc.devRef .tc main_v28)
    = padded (scores (m ((c : Thread nD τ).loc main_arg0)) (m ((c : Thread nD τ).loc main_arg1)) (m ((c : Thread nD τ).loc main_arg2))
        (m ((c : Thread nD τ).loc main_arg3)) (m ((c : Thread nD τ).loc main_arg4))) := by
  show StableHlo.after hostOps2_2 (StableHlo.after hostOps2_1 (StableHlo.after hostOps2 (W3 m ρ c))) (Proc.devRef .tc main_v28) = _
  after_results_simp
  rw [W3_v1 m ρ c, W3_v2 m ρ c, W3_arg2 m ρ c, W3_arg3 m ρ c, W3_arg4 m ρ c]
  show padded (combine (vec (N := 1000000) (m ((c : Thread nD τ).loc main_arg0)))
      (shapeCast S1000 (col (N := 1000) (m ((c : Thread nD τ).loc main_arg1))) shapeCasts_S1000x1_S1000)
      (m ((c : Thread nD τ).loc main_arg2)) (m ((c : Thread nD τ).loc main_arg3)) (m ((c : Thread nD τ).loc main_arg4))) = _
  rw [shapeCast_col]
  rfl

end Cert.KernelIdeal.KernelValue

end
-- ==== Proof.LibGatherRows.lean ====
/-
  Taking whole rows of a table: `stablehlo.gather` of a rank-2 operand along its first axis, read at an index.

  What `x[idx]` of a table `x : [N, D]` at an integer array `idx : [R, C]` lowers to: a gather with offset axis `[2]`,
  collapsed axis `[0]`, start index map `[0]`, slice sizes `[1, D]` and the index vector on axis 2 of the indices
  viewed `[R, C, 1]`. Result element `(t, j, k)` is the table at row `idx[t, j, 0]` — read as a signed integer and
  clamped into `[0, N − 1]`, as the gather clamps every start index so that the slice fits — and column `k`.
  (Its companion for a flat table `[N]`, one element per index, is the library's `gather_take_apply`: the row chosen
  is the same expression of the index, which is what lets a per-row quantity be taken before or after the gather.)
-/
import Idealize.ShloMosaic.Lib.ValueIdx

namespace Cert.LibGatherRows

open Idealize.ShloMosaic Idealize.ShloMosaic.ValueIdx

variable {α : Type}

/-- Those dimension numbers for a table `[N, D]`, start indices `[R, C, 1]` and result `[R, C, D]`; their conditions
    `wf` are decided on a program's literal shapes. -/
abbrev rowsDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The start-indices index `[t, j, 0]` of result index `(t, j, k)`. -/
abbrev rowsIdx {R C D : Nat} (y : (⟨3, ![R, C, D]⟩ : Shape).Idx) : (⟨3, ![R, C, 1]⟩ : Shape).Idx :=
  fun a => match a with
    | ⟨0, _⟩ => ⟨(y 0).val, (y 0).isLt⟩
    | ⟨1, _⟩ => ⟨(y 1).val, (y 1).isLt⟩
    | ⟨2, _⟩ => ⟨0, Nat.one_pos⟩

/-- THE GATHER READ AT `(t, j, k)`: the table at the row `idx[t, j, 0]`, read signed and clamped into `[0, N − 1]`, and
    column `k`. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (y : (⟨3, ![R, C, D]⟩ : Shape).Idx) :
    Host.gather (rowsDims N D R C wf) x idx y
      = x (ix2 (⟨min (idx (rowsIdx y)).toInt.toNat (N - 1), by omega⟩ : Fin N) (⟨(y 2).val, (y 2).isLt⟩ : Fin D)) := by
  unfold Host.gather
  congr 1
  funext a
  refine Fin.ext ?_
  match a with
  | ⟨0, _⟩ =>
    show (rowsDims N D R C wf).start y idx 0 + (rowsDims N D R C wf).batchCoord y 0 + (rowsDims N D R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D R C wf).startIndexMap from List.mem_singleton.mpr rfl)]
    have hsi : (rowsDims N D R C wf).siIdx y ⟨List.idxOf (0 : Fin 2) (rowsDims N D R C wf).startIndexMap,
        List.idxOf_lt_length_iff.2 (List.mem_singleton.mpr rfl)⟩ = rowsIdx y := by
      funext b; refine Fin.ext ?_
      match b with
      | ⟨0, _⟩ => rfl
      | ⟨1, _⟩ => rfl
      | ⟨2, _⟩ => rfl
    rw [hsi]
    rfl
  | ⟨1, _⟩ =>
    show (rowsDims N D R C wf).start y idx 1 + (rowsDims N D R C wf).batchCoord y 1 + (rowsDims N D R C wf).offCoord y 1 = (y 2).val
    have h10 : ¬ ((1 : Fin 2) = 0) := by decide
    have h1 : (1 : Fin 2) ∉ (rowsDims N D R C wf).startIndexMap := fun h => h10 (List.mem_singleton.mp h)
    have hs : (rowsDims N D R C wf).start y idx 1 = 0 := by
      unfold GatherDims.start; rw [dif_neg h1]
    have hk : (1 : Fin 2) ∈ (rowsDims N D R C wf).sKept :=
      (GatherDims.mem_sKept _ _).mpr ⟨fun h => h10 (List.mem_singleton.mp h), List.not_mem_nil⟩
    have ho : (rowsDims N D R C wf).offCoord y 1 = (y 2).val := by
      unfold GatherDims.offCoord; rw [dif_pos hk]; rfl
    rw [hs, GatherDims.batchCoord_eq_zero _ _ _ List.not_mem_nil, ho]
    omega

end Cert.LibGatherRows
-- ==== Proof.SumLaw.lean ====
/-
  The one law that joins the two programs: a sum over lanes commutes with adding and subtracting rows.

  For three rows `a`, `b`, `c` of REAL numbers, the sum of `a k + b k - c k` over the lanes is the sum of `a` plus the
  sum of `b` minus the sum of `c`. On the extended reals this needs the entries finite: with an infinite entry one side
  can be `+∞ - ∞` where the other is not. Finiteness is what the precondition provides. The zero the host's reduction
  starts from is absorbed on the way.
-/
import Mathlib.Data.EReal.Operations
import Mathlib.Algebra.BigOperators.Group.Finset.Basic
import Mathlib.Algebra.BigOperators.Fin

open scoped BigOperators

namespace Cert.SumLaw

/-- The coercion from the reals to the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Lane sum of `a + b - c`, started from zero, against `Σ a + Σ b - Σ c`, for rows of finite entries. -/
theorem zero_add_sum_add_sub {n : ℕ} (a b c : Fin n → EReal)
    (ha : ∀ k, ∃ x : ℝ, a k = (x : EReal)) (hb : ∀ k, ∃ x : ℝ, b k = (x : EReal)) (hc : ∀ k, ∃ x : ℝ, c k = (x : EReal)) :
    (0 : EReal) + ∑ k, (a k + b k - c k) = (∑ k, a k) + (∑ k, b k) - ∑ k, c k := by
  choose a' ha' using ha
  choose b' hb' using hb
  choose c' hc' using hc
  simp only [ha', hb', hc']
  rw [zero_add]
  simp only [← EReal.coe_add, ← EReal.coe_sub, ← coe_sum]
  rw [Finset.sum_sub_distrib, Finset.sum_add_distrib]

end Cert.SumLaw
-- ==== Proof.Bridge.lean ====
/-
  The two programs compute the same scores.

  Fix an edge `(p, q)`. Each of its three indices — wrapped if negative, read signed, clamped into its table — names a
  row: `rowAt`. The reference takes those three rows whole (a gather of 128 lanes per edge), forms `h + r − t` lane by
  lane and sums the lanes from zero. The kernel has the tables' row sums already and takes ONE element per index from
  them, at the same three rows — a gather's start index is the same expression of the index array whether the slice is
  a row or an element —, and forms `h + r − t` of the three sums. The two agree by the sum law, which needs every
  table entry finite.
-/
import proofs.«114982_j87282325390073_2_alg».proof.Proof.Gen.ReferenceIdeal.Read
import proofs.«114982_j87282325390073_2_alg».proof.Proof.KernelValue
import proofs.«114982_j87282325390073_2_alg».proof.Proof.LibGatherRows
import proofs.«114982_j87282325390073_2_alg».proof.Proof.SumLaw

set_option maxRecDepth 16384

noncomputable section

open scoped BigOperators

namespace Cert.Bridge

open Idealize.ShloMosaic Idealize.ShloMosaic.ValueIdx
open Cert.RowSum Cert.LibGatherRows Cert.KernelIdeal.KernelValue
open Cert.ReferenceIdeal (S1000000x128 S1000x128 S8x131072 S8x131072x128)

/-- The row of an `N`-row table that edge `(p, q)`'s index selects: wrapped by `n` if negative, read signed, clamped
    into `[0, N − 1]`. -/
def rowAt (N : ℕ) (hN : 0 < N) (n : BitVec 32) (x : (⟨S8x131072, .i32⟩ : BufTy).Contents (Elt Ideal)) (p : Fin 8) (q : Fin 131072) : Fin N :=
  ⟨min ((starts n x) (takeIdx (ix2 p q))).toInt.toNat (N - 1), by omega⟩

/-! ## The kernel's side: one element per index, out of the row sums -/

theorem take_ent (e : FVec Ideal Cert.KernelIdeal.S1000000 .f32) (x : (⟨S8x131072, .i32⟩ : BufTy).Contents (Elt Ideal)) (p : Fin 8) (q : Fin 131072) :
    Host.gather Cert.KernelIdeal.gather_S1000000_S8x131072x1_S8x131072_n_0_n_n_0_2_1 e (starts 1000000#32 x) (ix2 p q) = e (ix1 (rowAt 1000000 (by decide) 1000000#32 x p q)) :=
  gather_take_apply (by decide) Cert.KernelIdeal.Facts₀.gather_S1000000_S8x131072x1_S8x131072_n_0_n_n_0_2_1_wf e (starts 1000000#32 x) (ix2 p q)

theorem take_rel (r : FVec Ideal Cert.KernelIdeal.S1000 .f32) (x : (⟨S8x131072, .i32⟩ : BufTy).Contents (Elt Ideal)) (p : Fin 8) (q : Fin 131072) :
    Host.gather Cert.KernelIdeal.gather_S1000_S8x131072x1_S8x131072_n_0_n_n_0_2_1 r (starts 1000#32 x) (ix2 p q) = r (ix1 (rowAt 1000 (by decide) 1000#32 x p q)) :=
  gather_take_apply (by decide) Cert.KernelIdeal.Facts₀.gather_S1000_S8x131072x1_S8x131072_n_0_n_n_0_2_1_wf r (starts 1000#32 x) (ix2 p q)

/-- The kernel's score of edge `(p, q)`: the three row sums combined. -/
theorem scores_apply (x0 : (⟨S1000000x128, .f32⟩ : BufTy).Contents (Elt Ideal)) (x1 : (⟨S1000x128, .f32⟩ : BufTy).Contents (Elt Ideal))
    (x2 x3 x4 : (⟨S8x131072, .i32⟩ : BufTy).Contents (Elt Ideal)) (p : Fin 8) (q : Fin 131072) :
    scores x0 x1 x2 x3 x4 (ix2 p q)
      = rowSum (N := 1000000) x0 (rowAt 1000000 (by decide) 1000000#32 x2 p q) + rowSum (N := 1000) x1 (rowAt 1000 (by decide) 1000#32 x4 p q)
        - rowSum (N := 1000000) x0 (rowAt 1000000 (by decide) 1000000#32 x3 p q) := by
  unfold scores combine
  rw [subf_apply, addf_apply, take_ent, take_rel, take_ent]
  rfl

/-! ## The reference's side: whole rows per index -/

/-- The reference's start indices of each gather are the kernel's: the same wrap of the same argument. -/
theorem rows_idx (p : Fin 8) (q : Fin 131072) (k : Fin 128) :
    rowsIdx (Cert.ReferenceIdeal.Read.idx_main_v23 (ix2 p q) k) = takeIdx (ix2 p q) :=
  funext fun a => Fin.ext (by
    match a with
    | ⟨0, _⟩ => rfl
    | ⟨1, _⟩ => rfl
    | ⟨2, _⟩ => rfl)

theorem rows_src (x0 : (⟨S1000000x128, .f32⟩ : BufTy).Contents (Elt Ideal)) (x : (⟨S8x131072, .i32⟩ : BufTy).Contents (Elt Ideal))
    (p : Fin 8) (q : Fin 131072) (k : Fin 128) :
    Cert.ReferenceIdeal.Read.val_main_v6 (F := Ideal) x0 x (Cert.ReferenceIdeal.Read.idx_main_v23 (ix2 p q) k)
      = x0 (ix2 (rowAt 1000000 (by decide) 1000000#32 x p q) k) := by
  refine (gather_rows_apply (by decide) Cert.ReferenceIdeal.Facts₀.gather_S1000000x128_S8x131072x1_S8x131072x128_2_0_n_n_0_2_1128_wf x0
    (Cert.ReferenceIdeal.Read.val_main_v5 (F := Ideal) x) (Cert.ReferenceIdeal.Read.idx_main_v23 (ix2 p q) k)).trans
    (congrArg x0 (funext fun a => Fin.ext ?_))
  match a with
  | ⟨0, _⟩ =>
    show min ((Cert.ReferenceIdeal.Read.val_main_v5 (F := Ideal) x) (rowsIdx (Cert.ReferenceIdeal.Read.idx_main_v23 (ix2 p q) k))).toInt.toNat (1000000 - 1)
      = min ((starts 1000000#32 x) (takeIdx (ix2 p q))).toInt.toNat (1000000 - 1)
    rw [rows_idx]
    rfl
  | ⟨1, _⟩ => rfl

theorem rows_dst (x0 : (⟨S1000000x128, .f32⟩ : BufTy).Contents (Elt Ideal)) (x : (⟨S8x131072, .i32⟩ : BufTy).Contents (Elt Ideal))
    (p : Fin 8) (q : Fin 131072) (k : Fin 128) :
    Cert.ReferenceIdeal.Read.val_main_v13 (F := Ideal) x0 x (Cert.ReferenceIdeal.Read.idx_main_v23 (ix2 p q) k)
      = x0 (ix2 (rowAt 1000000 (by decide) 1000000#32 x p q) k) := by
  refine (gather_rows_apply (by decide) Cert.ReferenceIdeal.Facts₀.gather_S1000000x128_S8x131072x1_S8x131072x128_2_0_n_n_0_2_1128_wf x0
    (Cert.ReferenceIdeal.Read.val_main_v12 (F := Ideal) x) (Cert.ReferenceIdeal.Read.idx_main_v23 (ix2 p q) k)).trans
    (congrArg x0 (funext fun a => Fin.ext ?_))
  match a with
  | ⟨0, _⟩ =>
    show min ((Cert.ReferenceIdeal.Read.val_main_v12 (F := Ideal) x) (rowsIdx (Cert.ReferenceIdeal.Read.idx_main_v23 (ix2 p q) k))).toInt.toNat (1000000 - 1)
      = min ((starts 1000000#32 x) (takeIdx (ix2 p q))).toInt.toNat (1000000 - 1)
    rw [rows_idx]
    rfl
  | ⟨1, _⟩ => rfl

theorem rows_rel (x1 : (⟨S1000x128, .f32⟩ : BufTy).Contents (Elt Ideal)) (x : (⟨S8x131072, .i32⟩ : BufTy).Contents (Elt Ideal))
    (p : Fin 8) (q : Fin 131072) (k : Fin 128) :
    Cert.ReferenceIdeal.Read.val_main_v20 (F := Ideal) x1 x (Cert.ReferenceIdeal.Read.idx_main_v23 (ix2 p q) k)
      = x1 (ix2 (rowAt 1000 (by decide) 1000#32 x p q) k) := by
  refine (gather_rows_apply (by decide) Cert.ReferenceIdeal.Facts₀.gather_S1000x128_S8x131072x1_S8x131072x128_2_0_n_n_0_2_1128_wf x1
    (Cert.ReferenceIdeal.Read.val_main_v19 (F := Ideal) x) (Cert.ReferenceIdeal.Read.idx_main_v23 (ix2 p q) k)).trans
    (congrArg x1 (funext fun a => Fin.ext ?_))
  match a with
  | ⟨0, _⟩ =>
    show min ((Cert.ReferenceIdeal.Read.val_main_v19 (F := Ideal) x) (rowsIdx (Cert.ReferenceIdeal.Read.idx_main_v23 (ix2 p q) k))).toInt.toNat (1000 - 1)
      = min ((starts 1000#32 x) (takeIdx (ix2 p q))).toInt.toNat (1000 - 1)
    rw [rows_idx]
    rfl
  | ⟨1, _⟩ => rfl

/-- The reference's score of edge `(p, q)`: zero plus the lane sum of `h + r − t` over the three rows. -/
theorem ref_apply (x0 : (⟨S1000000x128, .f32⟩ : BufTy).Contents (Elt Ideal)) (x1 : (⟨S1000x128, .f32⟩ : BufTy).Contents (Elt Ideal))
    (x2 x3 x4 : (⟨S8x131072, .i32⟩ : BufTy).Contents (Elt Ideal)) (p : Fin 8) (q : Fin 131072) :
    Cert.ReferenceIdeal.Read.val_main_v23 (F := Ideal) x0 x1 x2 x3 x4 (ix2 p q)
      = (0 : EReal) + ∑ k : Fin 128, ((x0 (ix2 (rowAt 1000000 (by decide) 1000000#32 x2 p q) k) : EReal)
          + (x1 (ix2 (rowAt 1000 (by decide) 1000#32 x4 p q) k) : EReal)
          - (x0 (ix2 (rowAt 1000000 (by decide) 1000000#32 x3 p q) k) : EReal)) := by
  rw [Cert.ReferenceIdeal.Read.val_main_v23_apply]
  refine congrArg₂ (· + ·) ?_ (Finset.sum_congr rfl fun k _ => ?_)
  · show Ideal.ofBits .f32 0x00000000#32 = 0
    exact Ideal.ofBits_zero_f32
  · rw [Cert.ReferenceIdeal.Read.val_main_v22_apply, Cert.ReferenceIdeal.Read.val_main_v21_apply, rows_src, rows_rel, rows_dst]
    rfl

/-! ## The two sides meet -/

/-- With every table entry a real number, the reference's scores are the kernel's. -/
theorem scores_eq (x0 : (⟨S1000000x128, .f32⟩ : BufTy).Contents (Elt Ideal)) (x1 : (⟨S1000x128, .f32⟩ : BufTy).Contents (Elt Ideal))
    (x2 x3 x4 : (⟨S8x131072, .i32⟩ : BufTy).Contents (Elt Ideal))
    (h0 : ∀ i, ∃ r : ℝ, x0 i = (r : EReal)) (h1 : ∀ i, ∃ r : ℝ, x1 i = (r : EReal)) :
    Cert.ReferenceIdeal.Read.val_main_v23 (F := Ideal) x0 x1 x2 x3 x4 = scores x0 x1 x2 x3 x4 := by
  funext i
  obtain ⟨p, q, rfl⟩ : ∃ (p : Fin 8) (q : Fin 131072), i = ix2 p q := ⟨i 0, i 1, eq_ix2 i⟩
  rw [ref_apply, scores_apply]
  exact Cert.SumLaw.zero_add_sum_add_sub _ _ _ (fun k => h0 _) (fun k => h1 _) (fun k => h0 _)

end Cert.Bridge

end
-- ==== Proof.Finite.lean ====
/-
  What the precondition says, entry by entry.

  `finite_inputs` is the conjunction of two `all`s: every entry `x` of the entity table, and every entry of the relation
  table, has `|x| < +∞`. Over the extended reals `|x| = max x (−x)` is `+∞` exactly at the two infinities, so each entry
  of either table is a real number. That is what the sum law needs.
-/
import proofs.«114982_j87282325390073_2_alg».proof.Pre_finite_inputs
import Idealize.ShloMosaic.PureOps.Ideal
import Idealize.ShloMosaic.Lib.ValueIdx
import Idealize.ShloMosaic.Lib.Pipeline.Value
import Idealize.ShloMosaic.Lib.ReduceAll
import Idealize.ShloMosaic.Lib.Affine

noncomputable section

namespace Cert.Finite

open Idealize.ShloMosaic Idealize.ShloMosaic.ValueIdx Cert.Pre_finite_inputs

/-- The scalar shape has one index. -/
instance : Subsingleton S_.Idx := ⟨fun a b => funext fun d => d.elim0⟩

/-- The word `0x7F800000` is `+∞`. -/
theorem inf_word : Ideal.ofBits .f32 0x7F800000#32 = (⊤ : EReal) := by
  simp [Ideal.ofBits, Ideal.ieee]

/-- An extended real whose absolute value is below `+∞` is a real number. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => simp [Ideal.cmp] at h
  | top => simp [Ideal.cmp] at h
  | coe r => exact ⟨r, rfl⟩

variable [Facts]
open Facts

/-- Under the precondition every entry of both tables is a real number. -/
theorem real_of_pre (x0 : FVec Ideal S1000000x128 .f32) (x1 : FVec Ideal S1000x128 .f32) (x2 x3 x4 : IVec S8x131072 32)
    (h : fn (F := Ideal) x0 x1 x2 x3 x4 = fun _ => 1#1) :
    (∀ i, ∃ r : ℝ, x0 i = (r : EReal)) ∧ (∀ i, ∃ r : ℝ, x1 i = (r : EReal)) := by
  have h0 := congrFun h ix0
  dsimp only [fn] at h0
  obtain ⟨ha, hb⟩ := IntOp.andi_eq_one.1 h0
  refine ⟨fun i => real_of_abs_lt (x0 i) ?_, fun i => real_of_abs_lt (x1 i) ?_⟩
  · have e := Host.reduce_andi_all _ _ _ _ _ ha i
    rw [cmpf_apply, broadcastInDim_apply _ bcast_S_S1000000x128 _ i ix0 (fun a => a.elim0)] at e
    exact e
  · have e := Host.reduce_andi_all _ _ _ _ _ hb i
    rw [cmpf_apply, broadcastInDim_apply _ bcast_S_S1000x128 _ i ix0 (fun a => a.elim0)] at e
    exact e

end Cert.Finite

end
-- ==== Proof.lean ====
/-
  A translation-style edge score, two ways: `Σ_d (ent[src] + rel[rel] − ent[dst])` against
  `(Σ_d ent)[src] + (Σ_d rel)[rel] − (Σ_d ent)[dst]`.

  The reference gathers three 128-lane rows per edge, combines them lane by lane and sums the lanes. The kernel sums
  every row of the two tables first (two row-sum regions, the entity table in 125 blocks of 8000 rows, the relation
  table in one block) and then gathers single elements of the two vectors of row sums. Both pad each relation type's
  131072 scores with zeros to 150000 and lay the eight rows end to end.

  Over the extended reals the two are equal where every table entry is finite — the precondition — by one law: the sum
  over the lanes of `a + b − c` is `Σa + Σb − Σc` for rows of real numbers (module SumLaw). The rows an edge selects
  are the same on both sides: each program wraps a negative index by the table's length, and a gather clamps its start
  index into the table by the same rule whether it takes a row or an element (modules LibGatherRows, Bridge).

  The kernel's run is read from the regions kit over the segments of @main (WholeRun), each region's output array
  being the column of row sums of its table (RowSum, RegionValue), and the result buffer walked back to the arguments
  (KernelValue); the reference's run is its host operations composed. The ideal pass rewrote nothing, so the
  idealization claim is trivial; the three frames are the runs with the result forgotten.
-/
import proofs.«114982_j87282325390073_2_alg».proof.Defs
import proofs.«114982_j87282325390073_2_alg».proof.Proof.Gen.Kernel
import proofs.«114982_j87282325390073_2_alg».proof.Proof.Gen.Kernel.Skeleton
import proofs.«114982_j87282325390073_2_alg».proof.Proof.Gen.Kernel.Launch
import proofs.«114982_j87282325390073_2_alg».proof.Proof.Gen.Kernel.Points
import proofs.«114982_j87282325390073_2_alg».proof.Proof.Gen.Kernel.Frame
import proofs.«114982_j87282325390073_2_alg».proof.Proof.Gen.KernelIdeal
import proofs.«114982_j87282325390073_2_alg».proof.Proof.Gen.KernelIdeal.Skeleton
import proofs.«114982_j87282325390073_2_alg».proof.Proof.Gen.KernelIdeal.Launch
import proofs.«114982_j87282325390073_2_alg».proof.Proof.Gen.KernelIdeal.Points
import proofs.«114982_j87282325390073_2_alg».proof.Proof.Gen.KernelIdeal.Frame
import proofs.«114982_j87282325390073_2_alg».proof.Proof.Gen.ReferenceIdeal
import proofs.«114982_j87282325390073_2_alg».proof.Proof.Gen.ReferenceIdeal.Run
import proofs.«114982_j87282325390073_2_alg».proof.Proof.Gen.ReferenceIdeal.Read
import proofs.«114982_j87282325390073_2_alg».proof.Proof.Gen.Pre_finite_inputs
import proofs.«114982_j87282325390073_2_alg».proof.Proof.WholeRun
import proofs.«114982_j87282325390073_2_alg».proof.Proof.KernelValue
import proofs.«114982_j87282325390073_2_alg».proof.Proof.Bridge
import proofs.«114982_j87282325390073_2_alg».proof.Proof.Finite
import Idealize.ShloMosaic.Adequacy
import Idealize.ShloMosaic.Init

noncomputable section

namespace Cert.Proof

open Idealize.ShloMosaic Idealize.SL.Sem
open Cert.KernelIdeal.KernelValue (padded scores)

/-! ## The three frames -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-! ## The kernel's run with its result named -/

/-- Every weakly fair execution of the idealized kernel ends with the result buffer at the padded scores of the
    arguments as launched, and the arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v28)
        = padded (scores (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono (fun r h c => ⟨(h c).1.trans (Cert.KernelIdeal.KernelValue.result m ρ c), (h c).2⟩)
    (Cert.KernelIdeal.WholeRun.run_result m ρ)

/-! ## The claims -/

/-- The ideal pass rewrote no operation. -/
theorem preserves : Cert.preserves_Kernel_KernelIdeal := trivial

/-- From memories agreeing on the five arguments, of which the precondition holds, both idealized programs end with
    the padded scores: the kernel's run states them; the reference's run states the pad of its lane sums, which are the
    same scores where the tables are finite. -/
theorem algebraic : Cert.algebraic_KernelIdeal_ReferenceIdeal := by
  intro m ρ m' ρ' hpre hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, (hagree c).1, (hagree c).2.1, (hagree c).2.2.1, (hagree c).2.2.2.1, (hagree c).2.2.2.2]
  obtain ⟨h0, h1⟩ := Cert.Finite.real_of_pre _ _ _ _ _ (hpre c)
  exact congrArg padded (Cert.Bridge.scores_eq _ _ _ _ _ h0 h1)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
